-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S600000 32) (main_arg2 : IVec S600000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S1x128 : Shape := ⟨2, ![1, 128]⟩
abbrev S8000x128 : Shape := ⟨2, ![8000, 128]⟩

abbrev nBuf : Space → Nat
  | .hbm => 49
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S600000, .f32⟩
  | .hbm, ⟨7, _⟩ => ⟨S_, .f32⟩
  | .hbm, ⟨8, _⟩ => ⟨S50000, .f32⟩
  | .hbm, ⟨9, _⟩ => ⟨S600000x1, .i32⟩
  | .hbm, ⟨10, _⟩ => ⟨S50000, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000, .f32⟩
  | .hbm, ⟨29, _⟩ => ⟨S600000, .f32⟩
  | .hbm, ⟨30, _⟩ => ⟨S600000, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x128, .f32⟩
  | .hbm, ⟨40, _⟩ => ⟨S600000x1, .f32⟩
  | .hbm, ⟨41, _⟩ => ⟨S600000x128, .f32⟩
  | .hbm, ⟨42, _⟩ => ⟨S600000x128, .f32⟩
  | .hbm, ⟨43, _⟩ => ⟨S1x128, .f32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S50000x128 : S_.BroadcastsInDim S50000x128 (![] : Fin 0 → Fin S50000x128.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  dot_S8000x128_S128x128_S8000x128_1_0_0_1_n_n_wf : DotDims.WF S8000x128 S128x128 S8000x128 [1] [0] [0] [1] [] []
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S600000x128.size a
  hwx0_0 : ∀ i : grid0.Coords, EltTy.bits .f32 = 32 ∨ (Rect.block (s := S600000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S600000x128.size a
  hwx0_3 : ∀ i : grid0.Coords, EltTy.bits .f32 = 32 ∨ (Rect.block (s := S600000x128) S8000x128.size (cc0_transform_3 i) (hinb0_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_v29) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S600000, .f32⟩
  | .hbm, ⟨7, _⟩ => ⟨S_, .f32⟩
  | .hbm, ⟨8, _⟩ => ⟨S50000, .f32⟩
  | .hbm, ⟨9, _⟩ => ⟨S600000x1, .i32⟩
  | .hbm, ⟨10, _⟩ => ⟨S50000, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000, .f32⟩
  | .hbm, ⟨29, _⟩ => ⟨S600000, .f32⟩
  | .hbm, ⟨30, _⟩ => ⟨S600000, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x128, .f32⟩
  | .hbm, ⟨40, _⟩ => ⟨S600000x1, .f32⟩
  | .hbm, ⟨41, _⟩ => ⟨S600000x128, .f32⟩
  | .hbm, ⟨42, _⟩ => ⟨S600000x128, .f32⟩
  | .hbm, ⟨43, _⟩ => ⟨S600000x128, .f32⟩
  | .hbm, ⟨44, _⟩ => ⟨S1x128, .f32⟩
  | .hbm, ⟨45, _⟩ => ⟨S600000x128, .f32⟩
  | .hbm, ⟨46, _⟩ => ⟨S600000x128, .f32⟩
  | .hbm, ⟨47, _⟩ => ⟨S_, .f32⟩
  | .hbm, ⟨48, _⟩ => ⟨S50000x128, .f32⟩
  | .hbm, ⟨49, _⟩ => ⟨S600000x1, .i32⟩
  | .hbm, ⟨50, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S50000x128 : S_.BroadcastsInDim S50000x128 (![] : Fin 0 → Fin S50000x128.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.LibHostLayout.lean ====
/-
  Host layout operations read at one entry.

  A host program moves arrays between shapes without computing anything: it broadcasts a scalar, a vector or a
  one-column / one-row matrix to a larger shape, reshapes a vector into a one-row matrix, cuts a band of rows out of
  a matrix, and lays matrices side by side along the columns. Each such operation, read at ONE index of its result,
  is its operand read at one index; the lemmas below name that index for rank 1 and rank 2 shapes of arbitrary
  extents, with the indices written by their coordinates. On an operand axis of extent one a broadcast reads
  coordinate 0, which is also the only coordinate there is, so the statements hold at extent one too. Nothing here
  enumerates an index type: every proof is coordinate arithmetic.
-/
import Idealize.ShloMosaic.PureOps.Ideal
import Idealize.ShloMosaic.Lib.ValueIdx
import Idealize.ShloMosaic.Lib.Pipeline.Value

namespace Cert.HostLayout

open Idealize.ShloMosaic Idealize.ShloMosaic.ValueIdx

variable {α : Type}

/-- A coordinate below an extent is itself, and is 0 when the extent is one. -/
theorem val_eq_ite {n : Nat} (k : Fin n) : k.val = if n = 1 then 0 else k.val := by
  have := k.isLt
  split <;> omega

/-! ## Broadcasts -/

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- A vector of N entries made a column [N, 1]: entry (n, 0) is entry n. -/
theorem bcast_col_apply {N : Nat} (h : (⟨1, ![N]⟩ : Shape).BroadcastsInDim ⟨2, ![N, 1]⟩ (![0] : Fin 1 → Fin 2))
    (x : (⟨1, ![N]⟩ : Shape).Idx → α) (n : Fin N) (z : Fin 1) :
    broadcastInDim ⟨2, ![N, 1]⟩ ![0] h x (ix2 n z) = x (ix1 n) := by
  refine broadcastInDim_apply ![0] h x (ix2 n z) (ix1 n) ?_
  intro a
  match a with
  | ⟨0, _⟩ => exact val_eq_ite n

/-- A column [N, 1] repeated along C columns: entry (n, q) is the column's entry (n, 0). -/
theorem bcast_rows_apply {N C : Nat} (h : (⟨2, ![N, 1]⟩ : Shape).BroadcastsInDim ⟨2, ![N, C]⟩ (![0, 1] : Fin 2 → Fin 2))
    (x : (⟨2, ![N, 1]⟩ : Shape).Idx → α) (n : Fin N) (q : Fin C) :
    broadcastInDim ⟨2, ![N, C]⟩ ![0, 1] h x (ix2 n q) = x (ix2 n (0 : Fin 1)) := by
  refine broadcastInDim_apply ![0, 1] h x (ix2 n q) (ix2 n (0 : Fin 1)) ?_
  intro a
  match a with
  | ⟨0, _⟩ => exact val_eq_ite n
  | ⟨1, _⟩ => exact (if_pos rfl).symm

/-- A vector of C entries made a row [1, C]: entry (0, q) is entry q. -/
theorem bcast_rowvec_apply {C : Nat} (h : (⟨1, ![C]⟩ : Shape).BroadcastsInDim ⟨2, ![1, C]⟩ (![1] : Fin 1 → Fin 2))
    (x : (⟨1, ![C]⟩ : Shape).Idx → α) (z : Fin 1) (q : Fin C) :
    broadcastInDim ⟨2, ![1, C]⟩ ![1] h x (ix2 z q) = x (ix1 q) := by
  refine broadcastInDim_apply ![1] h x (ix2 z q) (ix1 q) ?_
  intro a
  match a with
  | ⟨0, _⟩ => exact val_eq_ite q

/-- A row [1, C] repeated down R rows: entry (r, q) is the row's entry (0, q). -/
theorem bcast_cols_apply {R C : Nat} (h : (⟨2, ![1, C]⟩ : Shape).BroadcastsInDim ⟨2, ![R, C]⟩ (![0, 1] : Fin 2 → Fin 2))
    (x : (⟨2, ![1, C]⟩ : Shape).Idx → α) (r : Fin R) (q : Fin C) :
    broadcastInDim ⟨2, ![R, C]⟩ ![0, 1] h x (ix2 r q) = x (ix2 (0 : Fin 1) q) := by
  refine broadcastInDim_apply ![0, 1] h x (ix2 r q) (ix2 (0 : Fin 1) q) ?_
  intro a
  match a with
  | ⟨0, _⟩ => exact (if_pos rfl).symm
  | ⟨1, _⟩ => exact val_eq_ite q

/-! ## A reshape and a slice -/

/-- A vector of C entries reshaped to a row [1, C]: the row-major positions of (0, q) and of q agree. -/
theorem reshape_rowvec_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  obtain rfl : z = 0 := Subsingleton.elim _ _
  show q.val = 0 * C + q.val
  omega

/-- A band of K1 rows of a [K, C] matrix starting at row `off`: entry (k, q) of the band is entry (off + k, q). -/
theorem slice_rows_apply {K K1 C : Nat} (off : Nat) (h : (⟨2, ![K, C]⟩ : Shape).Slices ![off, 0] ⟨2, ![K1, C]⟩)
    (x : (⟨2, ![K, C]⟩ : Shape).Idx → α) (k : Fin K1) (q : Fin C) (hk : off + k.val < K) :
    extractStridedSlice ⟨2, ![K1, C]⟩ ![off, 0] x h (ix2 k q) = x (ix2 ⟨off + k.val, hk⟩ q) := by
  refine extractStridedSlice_apply ![off, 0] x h (ix2 k q) (ix2 ⟨off + k.val, hk⟩ q) ?_
  intro a
  match a with
  | ⟨0, _⟩ => rfl
  | ⟨1, _⟩ => exact (Nat.zero_add _).symm

/-! ## Matrices laid side by side along the columns -/

/-- Three matrices of R rows side by side: a column of the first block reads the first matrix. -/
theorem concat3_apply_fst {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K1) :
    concatenate ⟨2, ![R, K1 + K2 + K3]⟩ 1 [⟨_, x1⟩, ⟨_, x2⟩, ⟨_, x3⟩] h (ix2 r (Fin.castAdd K3 (Fin.castAdd K2 k)))
      = x1 (ix2 r k) := by
  refine concatenate_apply_piece (t := ⟨2, ![R, K1 + K2 + K3]⟩) (1 : Fin 2) [⟨_, x1⟩, ⟨_, x2⟩, ⟨_, x3⟩] h _
    0 (by show 0 < 3; omega) _ x1 rfl rfl 0 rfl (ix2 r k) ?_ ?_
  · intro b hb
    match b, hb with
    | ⟨0, _⟩, _ => rfl
    | ⟨1, _⟩, hb => exact absurd rfl hb
  · show 0 + k.val = k.val
    omega

/-- Three matrices of R rows side by side: a column of the second block reads the second matrix. -/
theorem concat3_apply_snd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K2) :
    concatenate ⟨2, ![R, K1 + K2 + K3]⟩ 1 [⟨_, x1⟩, ⟨_, x2⟩, ⟨_, x3⟩] h (ix2 r (Fin.castAdd K3 (Fin.natAdd K1 k)))
      = x2 (ix2 r k) := by
  refine concatenate_apply_piece (t := ⟨2, ![R, K1 + K2 + K3]⟩) (1 : Fin 2) [⟨_, x1⟩, ⟨_, x2⟩, ⟨_, x3⟩] h _
    1 (by show 1 < 3; omega) _ x2 rfl rfl K1 rfl (ix2 r k) ?_ ?_
  · intro b hb
    match b, hb with
    | ⟨0, _⟩, _ => rfl
    | ⟨1, _⟩, hb => exact absurd rfl hb
  · show K1 + k.val = K1 + k.val
    rfl

/-- Three matrices of R rows side by side: a column of the third block reads the third matrix. -/
theorem concat3_apply_trd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K3) :
    concatenate ⟨2, ![R, K1 + K2 + K3]⟩ 1 [⟨_, x1⟩, ⟨_, x2⟩, ⟨_, x3⟩] h (ix2 r (Fin.natAdd (K1 + K2) k))
      = x3 (ix2 r k) := by
  refine concatenate_apply_piece (t := ⟨2, ![R, K1 + K2 + K3]⟩) (1 : Fin 2) [⟨_, x1⟩, ⟨_, x2⟩, ⟨_, x3⟩] h _
    2 (by show 2 < 3; omega) _ x3 rfl rfl (K1 + K2) rfl (ix2 r k) ?_ ?_
  · intro b hb
    match b, hb with
    | ⟨0, _⟩, _ => rfl
    | ⟨1, _⟩, hb => exact absurd rfl hb
  · show K1 + K2 + k.val = K1 + K2 + k.val
    rfl

/-- A property of every entry of each of two matrices of R rows holds of every entry of the two laid side by side:
    an entry whose column is below the first extent is an entry of the first, any other an entry of the second. -/
theorem concat2_forall {R K1 K2 : Nat} (P : α → Prop)
    (h : Shape.Concatenates [(⟨2, ![R, K1]⟩ : Shape), ⟨2, ![R, K2]⟩] ⟨2, ![R, K1 + K2]⟩ (1 : Fin 2))
    (x1 : (⟨2, ![R, K1]⟩ : Shape).Idx → α) (x2 : (⟨2, ![R, K2]⟩ : Shape).Idx → α)
    (h1 : ∀ i, P (x1 i)) (h2 : ∀ i, P (x2 i)) (j : (⟨2, ![R, K1 + K2]⟩ : Shape).Idx) :
    P (concatenate ⟨2, ![R, K1 + K2]⟩ 1 [⟨_, x1⟩, ⟨_, x2⟩] h j) := by
  obtain ⟨r, q, rfl⟩ : ∃ (r : Fin R) (q : Fin (K1 + K2)), j = ix2 r q := ⟨j 0, j 1, eq_ix2 j⟩
  by_cases hq : q.val < K1
  · have e := concatenate_pair_apply_left (t := ⟨2, ![R, K1 + K2]⟩) (1 : Fin 2) x1 x2 h (ix2 r q) rfl (ix2 r ⟨q.val, hq⟩)
      (by
        intro b
        match b with
        | ⟨0, _⟩ => rfl
        | ⟨1, _⟩ => rfl)
    rw [e]
    exact h1 _
  · have hq' : q.val - K1 < K2 := by have := q.isLt; omega
    have e := concatenate_pair_apply_right (t := ⟨2, ![R, K1 + K2]⟩) (1 : Fin 2) x1 x2 h (ix2 r q) rfl rfl
      (ix2 r ⟨q.val - K1, hq'⟩)
      (by
        intro b hb
        match b, hb with
        | ⟨0, _⟩, _ => rfl
        | ⟨1, _⟩, hb => exact absurd rfl hb)
      (by show q.val - K1 + K1 = q.val; omega)
    rw [e]
    exact h2 _

end Cert.HostLayout
-- ==== Proof.LibLinearRows.lean ====
/-
  A linear layer on rows, with its bias, an optional residual and the leaky selection, read at one entry.

  Each dense stage of a message-passing network multiplies a matrix of rows by a weight matrix, adds a bias to every
  row, perhaps adds a second matrix of the same shape, and perhaps passes every entry through the selection
  "the entry if it is positive, a fixed multiple of it otherwise".  Entry (p, c) of the outcome depends on row p of
  the left operand, column c of the weights, entry c of the bias and entry (p, c) of the residual only, so one formula
  describes a block of rows and the whole array alike.  The formula is stated once over arbitrary extents and shown to be
  what two spellings compute at the ideal instance: a product accumulated into a zero array of operands passed through
  a change of float format, the bias a one-row matrix repeated down the rows, the two constants of the selection
  splatted; and a general product, the bias a vector made a row and then repeated down the rows, the two constants
  scalars broadcast to the shape.
-/
import proofs.«114828_j54468775248495_1_alg».proof.Proof.LibMatRows
import proofs.«114828_j54468775248495_1_alg».proof.Proof.LibHostLayout
import Idealize.ShloMosaic.Lib.ValueLayout
import Idealize.ShloMosaic.Lib.Pipeline.Value

noncomputable section

open scoped BigOperators

namespace Idealize.ShloMosaic.LinearRows

open Idealize.ShloMosaic Idealize.ShloMosaic.ValueIdx Idealize.ShloMosaic.MatRows

variable {M K N : Nat}

/-- The selection at one number: v where v is above the number the word z denotes, the number the word s denotes times v
    elsewhere, in the instance's own comparison, product and choice. -/
def leakyAt (z s : BitVec 32) (v : EReal) : EReal :=
  Scalar.select (FloatOps.cmpf (F := Ideal) (φ := .f32) .ogt v (FloatOps.ofBits (F := Ideal) .f32 z)) v
    (FloatOps.mulf (F := Ideal) (φ := .f32) (FloatOps.ofBits (F := Ideal) .f32 s) v)

/-- Entry (p, c) of the product of X by W with entry c of the bias added. -/
def linAt (X : (⟨2, ![M, K]⟩ : Shape).Idx → EReal) (W : (⟨2, ![K, N]⟩ : Shape).Idx → EReal) (b : Fin N → EReal)
    (p : Fin M) (c : Fin N) : EReal :=
  (∑ k : Fin K, X (ix2 p k) * W (ix2 k c)) + b c

/-! ## The kernel's spelling -/

/-- The selection over splatted constants, at an index. -/
theorem kernel_leaky_apply {S : Shape} (z s : BitVec 32) (v : FVec Ideal S .f32) (i : S.Idx) :
    select (cmpf .ogt v (broadcast S (Scalar.ofBits (F := Ideal) .f32 z))) v
        (mulf (broadcast S (Scalar.ofBits (F := Ideal) .f32 s)) v) i
      = leakyAt z s (v i) := rfl

/-- A product into the zero array of operands passed through a change of format, a one-row bias repeated down the rows
    added. -/
theorem kernel_lin_apply (ht1 ht2 : FTy.bf16.bits < FTy.f32.bits)
    (hb : (⟨2, ![1, N]⟩ : Shape).Broadcasts ⟨2, ![M, N]⟩)
    (x0 : FVec Ideal ⟨2, ![M, K]⟩ .f32) (x1 : FVec Ideal ⟨2, ![K, N]⟩ .f32) (x2 : FVec Ideal ⟨2, ![1, N]⟩ .f32)
    (p : Fin M) (c : Fin N) :
    addf (matmul (DotDims.plain M K N) none (truncf .bf16 x0 ht1) (truncf .bf16 x1 ht2)
          (constant (F := Ideal) ⟨2, ![M, N]⟩ .f32 0x00000000#32))
        (broadcastTo ⟨2, ![M, N]⟩ x2 hb) (ix2 p c)
      = linAt x0 x1 (fun q => x2 (ix2 (0 : Fin 1) q)) p c := by
  show matmul (DotDims.plain M K N) none _ _ _ (ix2 p c) + broadcastTo ⟨2, ![M, N]⟩ x2 hb (ix2 p c) = _
  rw [broadcastTo_1b_ab_apply]
  exact congrArg (· + x2 (ix2 (0 : Fin 1) c)) (matmul_plain_apply none _ _ p c)

/-! ## The host's spelling -/

/-- The selection over broadcast scalars, at an index. -/
theorem host_leaky_apply {S : Shape} (h : (⟨0, ![]⟩ : Shape).BroadcastsInDim S (![] : Fin 0 → Fin S.rank))
    (z s : BitVec 32) (v : FVec Ideal S .f32) (i : S.Idx) :
    select (cmpf .ogt v (broadcastInDim S ![] h (constant (F := Ideal) ⟨0, ![]⟩ .f32 z))) v
        (mulf (broadcastInDim S ![] h (constant (F := Ideal) ⟨0, ![]⟩ .f32 s)) v) i
      = leakyAt z s (v i) := by
  show Scalar.select (FloatOps.cmpf (F := Ideal) (φ := .f32) .ogt (v i) (broadcastInDim S ![] h (constant (F := Ideal) ⟨0, ![]⟩ .f32 z) i)) (v i)
      (FloatOps.mulf (F := Ideal) (φ := .f32) (broadcastInDim S ![] h (constant (F := Ideal) ⟨0, ![]⟩ .f32 s) i) (v i)) = _
  rw [Cert.HostLayout.bcast_scalar_apply, Cert.HostLayout.bcast_scalar_apply]
  rfl

/-- A general product, a bias vector made a row and repeated down the rows added. -/
theorem host_lin_apply (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (X : FVec Ideal ⟨2, ![M, K]⟩ .f32) (W : FVec Ideal ⟨2, ![K, N]⟩ .f32) (b : FVec Ideal ⟨1, ![N]⟩ .f32)
    (p : Fin M) (c : Fin N) :
    addf (Host.dotGeneral (F := Ideal) (DotDims.plain M K N) none X W : FVec Ideal ⟨2, ![M, N]⟩ .f32)
        (broadcastInDim ⟨2, ![M, N]⟩ ![0, 1] h2 (broadcastInDim ⟨2, ![1, N]⟩ ![1] h1 b)) (ix2 p c)
      = linAt X W (fun q => b (ix1 q)) p c := by
  show (Host.dotGeneral (F := Ideal) (DotDims.plain M K N) none X W : FVec Ideal ⟨2, ![M, N]⟩ .f32) (ix2 p c)
      + broadcastInDim ⟨2, ![M, N]⟩ ![0, 1] h2 (broadcastInDim ⟨2, ![1, N]⟩ ![1] h1 b) (ix2 p c) = _
  rw [Cert.HostLayout.bcast_cols_apply, Cert.HostLayout.bcast_rowvec_apply]
  exact congrArg (· + b (ix1 c)) (dotGeneral_plain_apply none X W p c)

/-- The formula depends on the operands through the entries it names only. -/
theorem linAt_congr {M' : Nat} {X : (⟨2, ![M, K]⟩ : Shape).Idx → EReal} {X' : (⟨2, ![M', K]⟩ : Shape).Idx → EReal}
    {W W' : (⟨2, ![K, N]⟩ : Shape).Idx → EReal} {b b' : Fin N → EReal} {p : Fin M} {p' : Fin M'} {c : Fin N}
    (hX : ∀ k : Fin K, X (ix2 p k) = X' (ix2 p' k)) (hW : ∀ k : Fin K, W (ix2 k c) = W' (ix2 k c)) (hb : b c = b' c) :
    linAt X W b p c = linAt X' W' b' p' c := by
  unfold linAt
  rw [hb]
  exact congrArg (· + b' c) (Finset.sum_congr rfl fun k _ => by rw [hX k, hW k])

end Idealize.ShloMosaic.LinearRows

end
-- ==== Proof.KernelBlock.lean ====
/-
  One block of messages, read at one entry.

  At each grid point the kernel body is handed a block X of 8000 rows of normalised source features, the whole
  128 x 128 weight matrix W and the bias as a matrix b of one row, and stores in the output block the product of X
  by W, accumulated into a zero array, with the bias row repeated down the 8000 rows added. Both factors pass
  through a change of float format first, which on the extended reals is the identity, and a product accumulated
  into zero is there the plain sum over the shared extent. So entry (p, c) of the stored block is
      sum over k of X(p, k) * W(k, c), plus b(0, c).
-/
import proofs.«114828_j54468775248495_1_alg».proof.Proof.Gen.KernelIdeal.Frame
import proofs.«114828_j54468775248495_1_alg».proof.Proof.LibLinearRows

noncomputable section

open scoped BigOperators

namespace Cert.KernelIdeal.Block

open Idealize.ShloMosaic Idealize.ShloMosaic.ValueIdx Idealize.ShloMosaic.LinearRows
open Cert.KernelIdeal Cert.KernelIdeal.Gen

/-- The product's dimension record is the plain one: rows by columns, contracted over the shared extent. -/
theorem dot_plain :
    dot_S8000x128_S128x128_S8000x128_1_0_0_1_n_n = DotDims.plain 8000 128 128 := rfl

/-- Entry (p, c) of what the body stores, from the three blocks it loads. -/
theorem pay_apply (x0 : Vec Ideal S8000x128 .f32) (x1 : Vec Ideal S128x128 .f32) (x2 : Vec Ideal S1x128 .f32)
    (p : Fin 8000) (c : Fin 128) :
    k0_pay1 (F := Ideal) x0 x1 x2 (ix2 p c) = linAt x0 x1 (fun q => x2 (ix2 (0 : Fin 1) q)) p c := by
  unfold k0_pay1
  rw [shapeCast_self, shapeCast_self, dot_plain]
  exact kernel_lin_apply _ _ _ x0 x1 x2 p c

end Cert.KernelIdeal.Block

end
-- ==== Proof.KernelArray.lean ====
/-
  From blocks of messages to the whole message array.

  The kernel runs on a grid of 75 points. At point t it reads rows 8000 t .. 8000 t + 7999 of the normalised source
  rows X, the whole weight matrix W and the whole one-row bias matrix b, and writes rows 8000 t .. 8000 t + 7999 of the
  output. By the block formula entry (p, c) of what it writes is the sum over k of X(8000 t + p, k) * W(k, c) plus b(0, c):
  row 8000 t + p of ONE array defined over all 600000 rows. Every row lies in exactly the block of the point
  (row / 8000), so after the last point the output array is that array.
-/
import proofs.«114828_j54468775248495_1_alg».proof.Proof.Gen.KernelIdeal.Frame
import proofs.«114828_j54468775248495_1_alg».proof.Proof.KernelBlock
import Idealize.ShloMosaic.Lib.Pipeline.Value

set_option maxRecDepth 16384

noncomputable section

open scoped BigOperators

namespace Cert.KernelIdeal.Arr

open Idealize.ShloMosaic Idealize.ShloMosaic.TcCoe Idealize.ShloMosaic.ValueIdx Idealize.ShloMosaic.LinearRows
open Idealize.SL.Sem
open Cert.KernelIdeal Cert.KernelIdeal.Gen

variable (m : (ℓ : Loc nD τ sig) → Buf (Elt Ideal) ℓ)

/-- The message array over all rows, from the source rows, the weights and the bias as a one-row matrix. -/
def rowMsg (X : S600000x128.Idx → EReal) (W : S128x128.Idx → EReal) (b : S1x128.Idx → EReal) : S600000x128.Idx → EReal :=
  fun i => linAt X W (fun q => b (ix2 (0 : Fin 1) q)) (i 0) (i 1)

/-- An entry j of a stored block is entry i of the message array as soon as the block's operands agree with the
    arrays on the row of X, the column of W and the entry of b that the entry depends on. -/
theorem block_at (X : S600000x128.Idx → EReal) (W : S128x128.Idx → EReal) (b : S1x128.Idx → EReal)
    (x0 : S8000x128.Idx → EReal) (x1 : S128x128.Idx → EReal) (x2 : S1x128.Idx → EReal)
    (j : S8000x128.Idx) (i : S600000x128.Idx)
    (hc : (i 1 : Fin 128) = j 1)
    (h0 : ∀ k : Fin 128, x0 (ix2 (j 0) k) = X (ix2 (i 0) k))
    (h1 : ∀ k : Fin 128, x1 (ix2 k (j 1)) = W (ix2 k (j 1)))
    (h2 : x2 (ix2 (0 : Fin 1) (j 1)) = b (ix2 (0 : Fin 1) (j 1))) :
    k0_pay1 (F := Ideal) x0 x1 x2 j = rowMsg X W b i := by
  refine (congrArg (k0_pay1 (F := Ideal) x0 x1 x2) (eq_ix2 j)).trans ?_
  refine (Block.pay_apply x0 x1 x2 (j 0) (j 1)).trans ?_
  unfold rowMsg
  rw [hc]
  exact linAt_congr h0 h1 h2

theorem zero_offsets : (![0, 0] : Fin 2 → Nat) = fun _ => 0 := funext fun a => by fin_cases a <;> rfl

/-- Where each window's block sits at point t: the row blocks of X and of the output are block t, the weights and the
    bias are read whole. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block of rows is some point's. -/
theorem block_onto : ∀ q : Fin 75, ∃ t : Fin cfg0.N, win0_3.index t = ![q.val, 0] :=
  (by decide +kernel : ∀ q : Fin 75, ∃ t : Fin grid0.N, win0_3.index t = ![q.val, 0])

/-- What point t writes back is block t of the message array of the arrays the region finds. -/
theorem flushed_eq (c : Dev nD) (t : Fin cfg0.N) :
    (dats m 0 c).flushed 3 t
      = ((cfg0.win 3).blk t).view.read (Elt Ideal) (rowMsg (V m c main_v29) (V m c main_arg3) (V m c main_v30)) := by
  show (cfg0.win 3).cut (grid0.coords t) ((dats m 0 c).after 3 t) = _
  rw [after0_3]
  unfold out0_3
  rw [View.canon_unit_zero zero_offsets]
  simp only [View.ld_unit_zero (S := S8000x128) zero_offsets, View.ld_unit_zero (S := S128x128) zero_offsets,
    View.ld_unit_zero (S := S1x128) zero_offsets]
  obtain ⟨e00, e01, e10, e11, e20, e21, e30, e31⟩ := block_positions t
  funext j
  show k0_pay1 (F := Ideal) (iblk m c 0 t) (iblk m c 1 t) (iblk m c 2 t) j
    = rowMsg (V m c main_v29) (V m c main_arg3) (V m c main_v30) (((cfg0.win 3).blk t).view.emb j)
  refine block_at (V m c main_v29) (V m c main_arg3) (V m c main_v30) (iblk m c 0 t) (iblk m c 1 t) (iblk m c 2 t) j
    (((cfg0.win 3).blk t).view.emb j) ?_ ?_ ?_ ?_
  · apply Fin.ext
    show win0_3.index t (1 : Fin 2) * 128 + 1 * (j 1).val = (j 1).val
    omega
  · intro k
    show V m c main_v29 (((cfg0.win 0).blk t).view.emb (ix2 (j 0) k))
      = V m c main_v29 (ix2 ((((cfg0.win 3).blk t).view.emb j) 0) k)
    refine congrArg _ (funext fun a => Fin.ext ?_)
    match a with
    | ⟨0, _⟩ =>
      show win0_0.index t (0 : Fin 2) * 8000 + 1 * (j 0).val = win0_3.index t (0 : Fin 2) * 8000 + 1 * (j 0).val
      omega
    | ⟨1, _⟩ =>
      show win0_0.index t (1 : Fin 2) * 128 + 1 * k.val = k.val
      omega
  · intro k
    show V m c main_arg3 (((cfg0.win 1).blk t).view.emb (ix2 k (j 1))) = V m c main_arg3 (ix2 k (j 1))
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = (j 1).val
      omega
  · show V m c main_v30 (((cfg0.win 2).blk t).view.emb (ix2 (0 : Fin 1) (j 1))) = V m c main_v30 (ix2 (0 : Fin 1) (j 1))
    refine congrArg _ (funext fun a => Fin.ext ?_)
    match a with
    | ⟨0, _⟩ =>
      show win0_2.index t (0 : Fin 2) * 1 + 1 * 0 = 0
      omega
    | ⟨1, _⟩ =>
      show win0_2.index t (1 : Fin 2) * 128 + 1 * (j 1).val = (j 1).val
      omega

/-- A row-and-column index lies in point t's block iff each coordinate lies in the block's range on its axis. -/
theorem mem_block (t : Fin cfg0.N) (i : S600000x128.Idx) :
    i ∈ ((cfg0.win 3).blk t).view.set
      ↔ ∀ a : Fin 2, win0_3.index t a * S8000x128.size a ≤ (i a).val
          ∧ (i a).val < win0_3.index t a * S8000x128.size a + S8000x128.size a := by
  show i ∈ ((View.whole main_v31).slice (win0_3.rect t)).set ↔ _
  rw [View.set_slice_whole, Rect.mem_set_unit]
  exact Iff.rfl

/-- Every entry of the output array is written back by the point whose block holds its row. -/
theorem covered (i : S600000x128.Idx) :
    ∃ t : Fin cfg0.N, (cfg0.win 3).flush t = true ∧ i ∈ ((cfg0.win 3).blk t).view.set := by
  have hi0 : (i 0).val < 600000 := (i 0).isLt
  have hi1 : (i 1).val < 128 := (i 1).isLt
  obtain ⟨t, ht⟩ := block_onto ⟨(i 0).val / 8000, by omega⟩
  have q0 : win0_3.index t (0 : Fin 2) = (i 0).val / 8000 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 8000 ≤ (i 0).val ∧ (i 0).val < win0_3.index t (0 : Fin 2) * 8000 + 8000
    omega
  | ⟨1, _⟩ =>
    show win0_3.index t (1 : Fin 2) * 128 ≤ (i 1).val ∧ (i 1).val < win0_3.index t (1 : Fin 2) * 128 + 128
    omega

/-- After the last point the output array is the message array of the arrays the region found. -/
theorem final (c : Dev nD) :
    (dats m 0 c).arrAt 3 cfg0.N = rowMsg (V m c main_v29) (V m c main_arg3) (V m c main_v30) :=
  (dats m 0 c).arrAt_eq_of_cover 3 _ (fun t _ => flushed_eq m c t) covered

end Cert.KernelIdeal.Arr

end
-- ==== Proof.Messages.lean ====
/-
  The message array, as one function of its three operands.

  Every edge e carries a message: row e of the normalised source features X, multiplied by the weight matrix W, with the
  bias vector added. Entry (e, c) of the message array is therefore
      sum over k of X(e, k) * W(k, c), plus bias(c),
  a function of row e of X, column c of W and entry c of the bias only. Both programs compute this array — one in blocks of
  rows, one in a single product — and then scatter its rows onto the destination nodes in the same way.
-/
import proofs.«114828_j54468775248495_1_alg».proof.Proof.LibLinearRows

noncomputable section

open scoped BigOperators

namespace Cert.Messages

open Idealize.ShloMosaic Idealize.ShloMosaic.ValueIdx Idealize.ShloMosaic.LinearRows

/-- The message array of 600000 edges and 128 features. -/
def msg (X : (⟨2, ![600000, 128]⟩ : Shape).Idx → EReal) (W : (⟨2, ![128, 128]⟩ : Shape).Idx → EReal)
    (bias : (⟨1, ![128]⟩ : Shape).Idx → EReal) : (⟨2, ![600000, 128]⟩ : Shape).Idx → EReal :=
  fun i => linAt X W (fun q => bias (ix1 q)) (i 0) (i 1)

theorem msg_apply (X : (⟨2, ![600000, 128]⟩ : Shape).Idx → EReal) (W : (⟨2, ![128, 128]⟩ : Shape).Idx → EReal)
    (bias : (⟨1, ![128]⟩ : Shape).Idx → EReal) (e : Fin 600000) (c : Fin 128) :
    msg X W bias (ix2 e c) = linAt X W (fun q => bias (ix1 q)) e c := rfl

end Cert.Messages

end
-- ==== Proof.KernelHost.lean ====
/-
  The host operations around the kernel's region.

  Before the region the program counts, for every node, the edges that point at it; reads that count at each edge's
  source and destination; multiplies the two counts and takes the reciprocal square root; gathers the source node's
  feature row for every edge and scales it by that number. The region then finds three arrays: these normalised source
  rows, the weight matrix as launched, and the bias vector reshaped to a matrix of one row. The operations that
  compute the normalised source rows are, operation for operation and constant for constant, those of the reference.
  After the region the program scatters the rows of the region's output onto the destination nodes, adding into an
  array of zeros. Reading the region's output as the message array gives the program's result as one term of the
  five argument arrays.
-/
import proofs.«114828_j54468775248495_1_alg».proof.Proof.Gen.KernelIdeal.Frame
import proofs.«114828_j54468775248495_1_alg».proof.Proof.Gen.ReferenceIdeal.Read
import proofs.«114828_j54468775248495_1_alg».proof.Proof.KernelArray
import proofs.«114828_j54468775248495_1_alg».proof.Proof.Messages
import Idealize.ShloMosaic.Lib.StableHlo.Run
import Idealize.ShloMosaic.Lib.Pipeline.Value

set_option maxRecDepth 16384

noncomputable section

open scoped BigOperators

namespace Cert.KernelIdeal.HostSide

open Idealize.ShloMosaic Idealize.ShloMosaic.TcCoe Idealize.ShloMosaic.ValueIdx Idealize.ShloMosaic.LinearRows
open Idealize.SL.Sem Idealize.ShloMosaic.StableHlo
open Cert.KernelIdeal Cert.KernelIdeal.Gen Cert.Messages

variable (m : (ℓ : Loc nD τ sig) → Buf (Elt Ideal) ℓ)

/-- The region finds the bias vector reshaped to one row. -/
theorem found_bias (c : Dev nD) :
    (V m c main_v30 : S1x128.Idx → EReal)
      = shapeCast S1x128 (m ((c : Thread nD τ).loc main_arg4)) shapeCasts_S128_S1x128 := by
  show StableHlo.after hostOps0 (fun b => m (c, b)) (Proc.devRef .tc main_v30) = _
  after_results
  rfl

set_option maxHeartbeats 2000000 in
/-- The region finds the normalised source rows: the same operations on the same constants as the reference's. -/
theorem found_rows (c : Dev nD) :
    (V m c main_v29 : S600000x128.Idx → EReal)
      = Cert.ReferenceIdeal.Read.val_main_v29 (F := Ideal) (m ((c : Thread nD τ).loc main_arg0))
          (m ((c : Thread nD τ).loc main_arg1)) (m ((c : Thread nD τ).loc main_arg2)) := by
  show StableHlo.after hostOps0 (fun b => m (c, b)) (Proc.devRef .tc main_v29) = _
  after_results_simp
  rfl

/-- With a one-row bias matrix that is a reshaped vector, the message array over rows is the specification's. -/
theorem rowMsg_reshape (X : S600000x128.Idx → EReal) (W : S128x128.Idx → EReal) (bias : S128.Idx → EReal) :
    Arr.rowMsg X W (shapeCast S1x128 bias shapeCasts_S128_S1x128) = msg X W bias := by
  funext i
  exact congrArg (fun f => linAt X W f (i 0) (i 1))
    (funext fun q => Cert.HostLayout.reshape_rowvec_apply shapeCasts_S128_S1x128 bias (0 : Fin 1) q)

/-- The operations after the region scatter the region's output array. -/
theorem tail_scatter (c : Dev nD) :
    Pipeline.afterTail₀ cfgs (dats m) 0 (V0 m) [hostOps1] c main_v34
      = Host.scatterAdd scatter_S50000x128_S600000x1_S600000x128_1_0_0_1
          (broadcastInDim S50000x128 ![] bcast_S_S50000x128 (constant (F := Ideal) S_ .f32 0x00000000#32))
          (broadcastInDim S600000x1 ![0] bcast_S600000_S600000x1_0 (m ((c : Thread nD τ).loc main_arg2)))
          ((dats m 0 c).arrAt 3 cfg0.N) := by
  unfold Pipeline.afterTail₀
  show StableHlo.after hostOps1 _ (Proc.devRef .tc main_v34) = _
  after_results
  have e31 : Pipeline.withArrays (cfgs 0).spec c (V0 m c) (fun w => (dats m 0 c).arrAt w (cfgs 0).N)
      (Proc.devRef .tc main_v31) = (dats m 0 c).arrAt 3 cfg0.N :=
    Pipeline.withArrays_arr spec0 launch0.win.arr_inj c _ _ 3
  have e2 : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  rw [e31, e2]

/-- The program's result: the scatter of the message array of the normalised source rows, the weights and the bias. -/
theorem result_eq (c : Dev nD) :
    Pipeline.afterTail₀ cfgs (dats m) 0 (V0 m) [hostOps1] c main_v34
      = Host.scatterAdd scatter_S50000x128_S600000x1_S600000x128_1_0_0_1
          (broadcastInDim S50000x128 ![] bcast_S_S50000x128 (constant (F := Ideal) S_ .f32 0x00000000#32))
          (broadcastInDim S600000x1 ![0] bcast_S600000_S600000x1_0 (m ((c : Thread nD τ).loc main_arg2)))
          (msg (Cert.ReferenceIdeal.Read.val_main_v29 (F := Ideal) (m ((c : Thread nD τ).loc main_arg0))
              (m ((c : Thread nD τ).loc main_arg1)) (m ((c : Thread nD τ).loc main_arg2)))
            (m ((c : Thread nD τ).loc main_arg3)) (m ((c : Thread nD τ).loc main_arg4))) := by
  rw [tail_scatter, Arr.final, found_rows, found_bias, V_main_arg3, rowMsg_reshape]

end Cert.KernelIdeal.HostSide

end
-- ==== Proof.KernelRun.lean ====
/-
  The kernel program's run, with its result named.

  Every weakly fair execution of the program terminates without a fault; the result buffer then holds the scatter, onto
  the destination nodes, of the message array of the normalised source rows, the weights and the bias; and the five
  argument arrays are as launched. The result is read off the operations after the region, applied to the array the
  region leaves; the arguments are read as the frame reads them: the weight matrix is an input the region stages, the
  other four are touched by no write.
-/
import proofs.«114828_j54468775248495_1_alg».proof.Proof.KernelHost

set_option maxRecDepth 16384

noncomputable section

namespace Cert.KernelIdeal.HostSide

open Idealize.ShloMosaic Idealize.ShloMosaic.TcCoe Idealize.ShloMosaic.ValueIdx
open Idealize.SL.Sem
open Cert.KernelIdeal Cert.KernelIdeal.Gen Cert.Messages

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
      r.2.mem ((c.tc : Thread nD τ).loc main_v34)
        = Host.scatterAdd scatter_S50000x128_S600000x1_S600000x128_1_0_0_1
            (broadcastInDim S50000x128 ![] bcast_S_S50000x128 (constant (F := Ideal) S_ .f32 0x00000000#32))
            (broadcastInDim S600000x1 ![0] bcast_S600000_S600000x1_0 (m ((c.tc : Thread nD τ).loc main_arg2)))
            (msg (Cert.ReferenceIdeal.Read.val_main_v29 (F := Ideal) (m ((c.tc : Thread nD τ).loc main_arg0))
                (m ((c.tc : Thread nD τ).loc main_arg1)) (m ((c.tc : Thread nD τ).loc main_arg2)))
              (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v34 (Pipeline.mem_restRefs_of main_v34 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c)⟩)
    (run_main m ρ)

end Cert.KernelIdeal.HostSide

end
-- ==== Proof.RefMsg.lean ====
/-
  The reference's message array is the specification's.

  The reference multiplies the whole array of normalised source rows by the weights in one general product, makes the
  bias vector a one-row matrix, repeats that row down the 600000 rows and adds. On the extended reals the general product
  at (e, c) is the sum over k of the row's entry k times the weights' entry (k, c), and the repeated row at (e, c) is the
  bias at c: the message array of the specification.
-/
import proofs.«114828_j54468775248495_1_alg».proof.Proof.Gen.ReferenceIdeal.Read
import proofs.«114828_j54468775248495_1_alg».proof.Proof.Messages

noncomputable section

open scoped BigOperators

namespace Cert.ReferenceIdeal.Msg

open Idealize.ShloMosaic Idealize.ShloMosaic.ValueIdx Idealize.ShloMosaic.LinearRows
open Cert.ReferenceIdeal Cert.ReferenceIdeal.Gen Cert.Messages

/-- The product's dimension record is the plain one: rows by columns, contracted over the shared extent. -/
theorem dot_plain :
    dot_S600000x128_S128x128_S600000x128_1_0_0_1_n_n = DotDims.plain 600000 128 128 := rfl

/-- The array the reference scatters is the message array of its normalised source rows, the weights and the bias. -/
theorem messages_eq (x0 : (⟨S50000x128, .f32⟩ : BufTy).Contents (Elt Ideal))
    (x1 x2 : (⟨S600000, .i32⟩ : BufTy).Contents (Elt Ideal))
    (x3 : (⟨S128x128, .f32⟩ : BufTy).Contents (Elt Ideal)) (x4 : (⟨S128, .f32⟩ : BufTy).Contents (Elt Ideal)) :
    Read.val_main_v33 (F := Ideal) x0 x1 x2 x3 x4 = msg (Read.val_main_v29 (F := Ideal) x0 x1 x2) x3 x4 := by
  funext i
  obtain ⟨e, c, rfl⟩ : ∃ (e : Fin 600000) (c : Fin 128), i = ix2 e c := ⟨i 0, i 1, eq_ix2 i⟩
  rw [msg_apply]
  unfold Read.val_main_v33 Read.val_main_v30 Read.val_main_v32 Read.val_main_v31
  generalize Read.val_main_v29 (F := Ideal) x0 x1 x2 = X
  rw [dot_plain]
  exact host_lin_apply _ _ X x3 x4 e c

end Cert.ReferenceIdeal.Msg

end
-- ==== Proof.lean ====
/-
  A graph-convolution layer: the kernel program and the reference compute the same array on the extended reals.

  Both programs take node features x (50000 x 128), edge sources src and destinations dst (600000 each), a weight matrix W
  (128 x 128) and a bias b (128). Both count the edges into every node, form for each edge the number
  rsqrt(count(src) * count(dst)), scale the source node's feature row by it, and so obtain the same 600000 x 128 array X of
  normalised source rows — by the same operations on the same constants. From X both form the message array
      M(e, c) = sum over k of X(e, k) * W(k, c) + b(c),
  the reference by one general product and a bias row repeated down the rows, the kernel in 75 blocks of 8000 rows, each
  block a product accumulated into zeros of operands passed through a change of float format, which is the identity on
  the extended reals. No law of arithmetic beyond the definition of the two products is used, so nothing is asked of
  the inputs' finiteness. Both then add the rows of M onto the destination nodes by the same scatter. So the two
  results are one term of the five arguments.

  The three frames are the generated ones (for the reference, its generated run with the result dropped). No operation
  of the kernel program was rewritten in passing to the extended reals, so that its idealization is faithful holds trivially.
-/
import proofs.«114828_j54468775248495_1_alg».proof.Defs
import proofs.«114828_j54468775248495_1_alg».proof.Proof.Gen.Kernel
import proofs.«114828_j54468775248495_1_alg».proof.Proof.Gen.Kernel.Skeleton
import proofs.«114828_j54468775248495_1_alg».proof.Proof.Gen.Kernel.Launch
import proofs.«114828_j54468775248495_1_alg».proof.Proof.Gen.Kernel.Points
import proofs.«114828_j54468775248495_1_alg».proof.Proof.Gen.Kernel.Frame
import proofs.«114828_j54468775248495_1_alg».proof.Proof.Gen.KernelIdeal
import proofs.«114828_j54468775248495_1_alg».proof.Proof.Gen.KernelIdeal.Skeleton
import proofs.«114828_j54468775248495_1_alg».proof.Proof.Gen.KernelIdeal.Launch
import proofs.«114828_j54468775248495_1_alg».proof.Proof.Gen.KernelIdeal.Points
import proofs.«114828_j54468775248495_1_alg».proof.Proof.Gen.KernelIdeal.Frame
import proofs.«114828_j54468775248495_1_alg».proof.Proof.Gen.ReferenceIdeal
import proofs.«114828_j54468775248495_1_alg».proof.Proof.Gen.Pre_finite_inputs
import proofs.«114828_j54468775248495_1_alg».proof.Proof.Gen.ReferenceIdeal.Run
import proofs.«114828_j54468775248495_1_alg».proof.Proof.Gen.ReferenceIdeal.Read
import proofs.«114828_j54468775248495_1_alg».proof.Proof.KernelRun
import proofs.«114828_j54468775248495_1_alg».proof.Proof.RefMsg
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The reference's result is the scatter of its message array, which is the specification's message array of its
    normalised source rows; with the arguments agreeing this is the kernel program's result, term for term. -/
theorem algebraic : Cert.algebraic_KernelIdeal_ReferenceIdeal := by
  intro m ρ m' ρ' _ hagree
  refine ⟨_, Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rw [Cert.ReferenceIdeal.Read.val_main_v36_eq]
  unfold Cert.ReferenceIdeal.Read.val_main_v36
  rw [Cert.ReferenceIdeal.Msg.messages_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
